-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel

variable [Facts]

def fn {F : FTy → Type} [FloatOps F] (main_arg0 : FVec F S16x256x64x64 .f32) (main_arg1 : FVec F S16x256x64x64 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S16x256x64x64 .f32 := Host.absf main_arg1
  let main_cst_0 : FVec F S_ .f32 := constant S_ .f32 0x7F800000#32
  let main_v5 : FVec F S16x256x64x64 .f32 := broadcastInDim S16x256x64x64 ![] bcast_S_S16x256x64x64 main_cst_0
  let main_v6 : IVec S16x256x64x64 1 := cmpf .olt main_v4 main_v5
  let main_c_1 : IVec S_ 1 := constantI S_ 1 1#1
  let main_v7 : IVec S_ 1 := (fun x v => Host.reduce IntOp.andi x v reducesTo_S16x256x64x64_S_d0_1_2_3 h_S_) main_v6 main_c_1
  let main_v8 : IVec S_ 1 := andi main_v3 main_v7
  main_v8
-- ==== Kernel.lean ====
abbrev S16x256x64x64 : Shape := ⟨4, ![16, 256, 64, 64]⟩
abbrev S16x256x4096 : Shape := ⟨3, ![16, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩
abbrev S16x4096x256 : Shape := ⟨3, ![16, 4096, 256]⟩

abbrev nBuf : Space → Nat
  | .hbm => 9
  | .vmem => 6
  | .smem => 0
  | _ => 0

abbrev bufTy : (tb : Table) → Fin (tcTables nBuf tb) → BufTy
  | .hbm, ⟨0, _⟩ => ⟨S16x256x64x64, .f32⟩
  | .hbm, ⟨1, _⟩ => ⟨S16x256x64x64, .f32⟩
  | .hbm, ⟨2, _⟩ => ⟨S16x256x4096, .f32⟩
  | .hbm, ⟨3, _⟩ => ⟨S16x256x4096, .f32⟩
  | .hbm, ⟨4, _⟩ => ⟨S16x256x4096, .f32⟩
  | .hbm, ⟨5, _⟩ => ⟨S16x4096x256, .f32⟩
  | .hbm, ⟨6, _⟩ => ⟨S16x256x64x64, .f32⟩
  | .hbm, ⟨7, _⟩ => ⟨S16x256x64x64, .f32⟩
  | .hbm, ⟨8, _⟩ => ⟨S16x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x256x64x64_S16x256x4096 : S16x256x64x64.ShapeCasts S16x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  reduces_S256x4096_S256 : S256x4096.Reduces [1] S256
  shapeCasts_S256_S256x1 : S256.ShapeCasts S256x1
  broadcasts_S256x1_S256x4096 : S256x1.Broadcasts S256x4096
  reduces_S256x256_S256 : S256x256.Reduces [1] S256
  broadcasts_S256x1_S256x256 : S256x1.Broadcasts S256x256
  shapeCasts_S256x4096_S1x256x4096 : S256x4096.ShapeCasts S1x256x4096
  transposes_S16x256x4096_S16x4096x256_0_2_1 : S16x256x4096.Transposes [0, 2, 1] S16x4096x256
  shapeCasts_S16x4096x256_S16x256x64x64 : S16x4096x256.ShapeCasts S16x256x64x64
  dot_S256x4096_S256x4096_S256x256_1_1_0_0_n_n_wf : DotDims.WF S256x4096 S256x4096 S256x256 [1] [1] [0] [0] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x4096.size a
  hwx0_0 : ∀ i : grid0.Coords, EltTy.bits .f32 = 32 ∨ (Rect.block (s := S16x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S16x256x4096.size a
  hwx0_1 : ∀ i : grid0.Coords, EltTy.bits .f32 = 32 ∨ (Rect.block (s := S16x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S16x256x4096.size a
  hwx0_2 : ∀ i : grid0.Coords, EltTy.bits .f32 = 32 ∨ (Rect.block (s := S16x256x4096) S1x256x4096.size (cc0_transform_2 i) (hinb0_2 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S16x256x4096 : Shape := ⟨3, ![16, 256, 4096]⟩
abbrev S_ : Shape := ⟨0, ![]⟩
abbrev S16x256 : Shape := ⟨2, ![16, 256]⟩
abbrev S16x256x1 : Shape := ⟨3, ![16, 256, 1]⟩
abbrev S16x256x256 : Shape := ⟨3, ![16, 256, 256]⟩
abbrev S16x4096x256 : Shape := ⟨3, ![16, 4096, 256]⟩

abbrev nBuf : Space → Nat
  | .hbm => 67
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S16x256x64x64, .f32⟩
  | .hbm, ⟨2, _⟩ => ⟨S16x256x4096, .f32⟩
  | .hbm, ⟨3, _⟩ => ⟨S16x256x4096, .f32⟩
  | .hbm, ⟨4, _⟩ => ⟨S16x256x4096, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S16x256x4096, .f32⟩
  | .hbm, ⟨13, _⟩ => ⟨S16x256x4096, .f32⟩
  | .hbm, ⟨14, _⟩ => ⟨S16x256x4096, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x4096, .f32⟩
  | .hbm, ⟨23, _⟩ => ⟨S16x256x4096, .f32⟩
  | .hbm, ⟨24, _⟩ => ⟨S16x256x256, .f32⟩
  | .hbm, ⟨25, _⟩ => ⟨S16x256x256, .f32⟩
  | .hbm, ⟨26, _⟩ => ⟨S16x256x256, .f32⟩
  | .hbm, ⟨27, _⟩ => ⟨S16x256x256, .f32⟩
  | .hbm, ⟨28, _⟩ => ⟨S16x256x256, .f32⟩
  | .hbm, ⟨29, _⟩ => ⟨S_, .f32⟩
  | .hbm, ⟨30, _⟩ => ⟨S16x256, .f32⟩
  | .hbm, ⟨31, _⟩ => ⟨S_, .f32⟩
  | .hbm, ⟨32, _⟩ => ⟨S16x256, .f32⟩
  | .hbm, ⟨33, _⟩ => ⟨S16x256, .f32⟩
  | .hbm, ⟨34, _⟩ => ⟨S16x256x1, .f32⟩
  | .hbm, ⟨35, _⟩ => ⟨S16x256x256, .f32⟩
  | .hbm, ⟨36, _⟩ => ⟨S16x256x256, .f32⟩
  | .hbm, ⟨37, _⟩ => ⟨S16x256x256, .f32⟩
  | .hbm, ⟨38, _⟩ => ⟨S_, .f32⟩
  | .hbm, ⟨39, _⟩ => ⟨S16x256, .f32⟩
  | .hbm, ⟨40, _⟩ => ⟨S16x256x1, .f32⟩
  | .hbm, ⟨41, _⟩ => ⟨S16x256x256, .f32⟩
  | .hbm, ⟨42, _⟩ => ⟨S16x256x256, .f32⟩
  | .hbm, ⟨43, _⟩ => ⟨S16x256x256, .f32⟩
  | .hbm, ⟨44, _⟩ => ⟨S_, .f32⟩
  | .hbm, ⟨45, _⟩ => ⟨S16x256, .f32⟩
  | .hbm, ⟨46, _⟩ => ⟨S_, .f32⟩
  | .hbm, ⟨47, _⟩ => ⟨S16x256, .f32⟩
  | .hbm, ⟨48, _⟩ => ⟨S16x256, .f32⟩
  | .hbm, ⟨49, _⟩ => ⟨S16x256x1, .f32⟩
  | .hbm, ⟨50, _⟩ => ⟨S16x256x256, .f32⟩
  | .hbm, ⟨51, _⟩ => ⟨S16x256x256, .f32⟩
  | .hbm, ⟨52, _⟩ => ⟨S16x256x256, .f32⟩
  | .hbm, ⟨53, _⟩ => ⟨S_, .f32⟩
  | .hbm, ⟨54, _⟩ => ⟨S16x256, .f32⟩
  | .hbm, ⟨55, _⟩ => ⟨S16x256x1, .f32⟩
  | .hbm, ⟨56, _⟩ => ⟨S16x256x256, .f32⟩
  | .hbm, ⟨57, _⟩ => ⟨S16x256x256, .f32⟩
  | .hbm, ⟨58, _⟩ => ⟨S16x256x4096, .f32⟩
  | .hbm, ⟨59, _⟩ => ⟨S16x256x4096, .f32⟩
  | .hbm, ⟨60, _⟩ => ⟨S16x4096x256, .f32⟩
  | .hbm, ⟨61, _⟩ => ⟨S16x256x64x64, .f32⟩
  | .hbm, ⟨62, _⟩ => ⟨S16x256x64x64, .f32⟩
  | .hbm, ⟨63, _⟩ => ⟨S16x4096x256, .f32⟩
  | .hbm, ⟨64, _⟩ => ⟨S16x256x64x64, .f32⟩
  | .hbm, ⟨65, _⟩ => ⟨S16x256x64x64, .f32⟩
  | .hbm, ⟨66, _⟩ => ⟨S16x256x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]

class Facts₀ : Prop where
  shapeCasts_S16x256x64x64_S16x256x4096 : S16x256x64x64.ShapeCasts S16x256x4096
  reducesTo_S16x256x4096_S16x256_d2 : S16x256x4096.ReducesTo [2] S16x256
  h_S_ : 0 < S_.numel
  bcast_S16x256_S16x256x1_0_1 : S16x256.BroadcastsInDim S16x256x1 (![0, 1] : Fin 2 → Fin S16x256x1.rank)
  bcast_S_S16x256x1 : S_.BroadcastsInDim S16x256x1 (![] : Fin 0 → Fin S16x256x1.rank)
  bcast_S16x256x1_S16x256x4096_0_1_2 : S16x256x1.BroadcastsInDim S16x256x4096 (![0, 1, 2] : Fin 3 → Fin S16x256x4096.rank)
  reducesTo_S16x256x256_S16x256_d2 : S16x256x256.ReducesTo [2] S16x256
  bcast_S_S16x256 : S_.BroadcastsInDim S16x256 (![] : Fin 0 → Fin S16x256.rank)
  bcast_S16x256x1_S16x256x256_0_1_2 : S16x256x1.BroadcastsInDim S16x256x256 (![0, 1, 2] : Fin 3 → Fin S16x256x256.rank)
  transposes_S16x256x4096_S16x4096x256_0_2_1 : S16x256x4096.Transposes [0, 2, 1] S16x4096x256
  shapeCasts_S16x4096x256_S16x256x64x64 : S16x4096x256.ShapeCasts S16x256x64x64
  dot_S16x256x4096_S16x256x4096_S16x256x256_2_2_1_1_0_0_wf : DotDims.WF S16x256x4096 S16x256x4096 S16x256x256 [2] [2] [1] [1] [0] [0]
  dot_S16x256x256_S16x256x4096_S16x256x4096_2_1_1_2_0_0_wf : DotDims.WF S16x256x256 S16x256x4096 S16x256x4096 [2] [1] [1] [2] [0] [0]

variable [Facts₀]

def dot_S16x256x4096_S16x256x4096_S16x256x256_2_2_1_1_0_0 : DotDims S16x256x4096 S16x256x4096 S16x256x256 where
  lhsContracting := [2]
  rhsContracting := [2]
  lhsNonContracting := [1]
  rhsNonContracting := [1]
  lhsBatch := [0]
  rhsBatch := [0]
  wf := dot_S16x256x4096_S16x256x4096_S16x256x256_2_2_1_1_0_0_wf
def dot_S16x256x256_S16x256x4096_S16x256x4096_2_1_1_2_0_0 : DotDims S16x256x256 S16x256x4096 S16x256x4096 where
  lhsContracting := [2]
  rhsContracting := [1]
  lhsNonContracting := [1]
  rhsNonContracting := [2]
  lhsBatch := [0]
  rhsBatch := [0]
  wf := dot_S16x256x256_S16x256x4096_S16x256x4096_2_1_1_2_0_0_wf

class Facts : Prop extends Facts₀ where

variable [Facts]
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.Spec.lean ====
/-
  The function both programs compute on one pair of matrices X, Y (n rows of m entries), over the extended reals.

  Each row is divided by its Euclidean norm, floored at ε:   N X c k = X c k / max (sqrt (Σ_k (X c k)²)) ε.
  Two score matrices are sums of two Gram matrices of the normalised rows,
      S₁ = N X · (N X)ᵀ + N Y · (N X)ᵀ,      S₂ = N Y · (N Y)ᵀ + N X · (N Y)ᵀ,
  each row of a score matrix goes through the softmax that first subtracts the row's maximum (the maximum taken
  from −∞, and once more against −∞, as both programs write it), and the result mixes the rows of the unnormalised
  matrices:   softmax S₁ · X + softmax S₂ · Y.
  Nothing here depends on a program: plain functions of `Fin`-indexed families of extended reals.
-/
import Idealize.ShloMosaic.PureOps.Ideal

noncomputable section

namespace Cert.Spec

open Idealize.ShloMosaic

variable {n n' m : Nat}

/-- The norm's floor ε and the softmax's −∞, as the extended reals the programs' two bit patterns denote (never
    evaluated: both programs carry the same two patterns). -/
abbrev eps : EReal := Ideal.ofBits .f32 0x2B8CBCCC#32
abbrev ninf : EReal := Ideal.ofBits .f32 0xFF800000#32

/-- A row's Euclidean norm, floored at `eps`. -/
def rowNorm (eps : EReal) (r : Fin m → EReal) : EReal := max (Ideal.sqrt (∑ k, r k * r k)) eps

/-- Every row divided by its floored norm. -/
def normalize (eps : EReal) (X : Fin n → Fin m → EReal) : Fin n → Fin m → EReal :=
  fun c k => Ideal.div (X c k) (rowNorm eps (X c))

/-- The Gram matrix P · Qᵀ: entry (c, d) is the inner product of row `c` of `P` with row `d` of `Q`. -/
def gram (P : Fin n → Fin m → EReal) (Q : Fin n' → Fin m → EReal) : Fin n → Fin n' → EReal :=
  fun c d => ∑ k, P c k * Q d k

/-- A row's maximum, folded from `ninf` and compared with `ninf` once more. -/
def rowTop (ninf : EReal) (r : Fin n' → EReal) : EReal := max ninf (Finset.univ.fold max ninf r)

/-- The softmax of every row: exp (s − top) over the row's sum of those. -/
def softmax (ninf : EReal) (S : Fin n → Fin n' → EReal) : Fin n → Fin n' → EReal :=
  fun c d => Ideal.div (Ideal.exp (S c d - rowTop ninf (S c))) (∑ d', Ideal.exp (S c d' - rowTop ninf (S c)))

/-- The matrix product W · X. -/
def mix (W : Fin n → Fin n' → EReal) (X : Fin n' → Fin m → EReal) : Fin n → Fin m → EReal :=
  fun c k => ∑ d, W c d * X d k

/-- The first score matrix and the second, of the normalised rows. -/
def scores (P Q : Fin n → Fin m → EReal) : Fin n → Fin n → EReal :=
  fun c d => gram P P c d + gram Q P c d

/-- The whole function of one pair of matrices. -/
def fused (eps ninf : EReal) (X Y : Fin n → Fin m → EReal) : Fin n → Fin m → EReal :=
  fun c k => mix (softmax ninf (scores (normalize eps X) (normalize eps Y))) X c k
    + mix (softmax ninf (scores (normalize eps Y) (normalize eps X))) Y c k

end Cert.Spec

end
-- ==== Proof.Dots.lean ====
/-
  The matrix products of the two programs read at an index, at the ideal values: a product into the zero
  accumulator on the matrix unit, and the host's `dot_general` over a stack of matrices, are both the plain sum of
  the operands' products over the contracted axis. Two shapes occur: rows against rows (P · Qᵀ, both operands
  contracted on their last axis) and rows against columns (W · X).
-/
import proofs.«139814_j75307956568506_1_alg».proof.Proof.Gen.KernelIdeal
import proofs.«139814_j75307956568506_1_alg».proof.Proof.Gen.ReferenceIdeal.Read
import Idealize.ShloMosaic.PureOps.Ideal.Laws
import Idealize.ShloMosaic.Lib.ValueIdx

noncomputable section

namespace Cert.Dots

open Idealize.ShloMosaic Idealize.ShloMosaic.ValueIdx

/-! ## On the matrix unit -/

section Kernel

open Cert.KernelIdeal Cert.KernelIdeal.Gen

/-- Rows against rows: both operands [256, 4096], contracted on the last axis. -/
abbrev kNT : DotDims S256x4096 S256x4096 S256x256 := dot_S256x4096_S256x4096_S256x256_1_1_0_0_n_n
/-- Rows against columns: [256, 256] times [256, 4096]. -/
abbrev kNN : DotDims S256x256 S256x4096 S256x4096 := dot_S256x256_S256x4096_S256x4096_1_0_0_1_n_n

theorem kNT_lhs0 (i : S256x256.Idx) (q : kNT.contr.Idx) : (kNT.lhsIdx i q 0).val = (i 0).val := by
  unfold DotDims.lhsIdx
  rw [dif_neg (show ¬(0 : Fin S256x4096.rank) ∈ kNT.lhsBatch by decide), dif_pos (show (0 : Fin S256x4096.rank) ∈ kNT.lhsNonContracting by decide)]
  rfl
theorem kNT_lhs1 (i : S256x256.Idx) (q : kNT.contr.Idx) : (kNT.lhsIdx i q 1).val = (q ⟨0, by decide⟩).val :=
  kNT.lhsIdx_val_of_single rfl i q
theorem kNT_rhs0 (i : S256x256.Idx) (q : kNT.contr.Idx) : (kNT.rhsIdx i q 0).val = (i 1).val := by
  unfold DotDims.rhsIdx
  rw [dif_neg (show ¬(0 : Fin S256x4096.rank) ∈ kNT.rhsBatch by decide), dif_pos (show (0 : Fin S256x4096.rank) ∈ kNT.rhsNonContracting by decide)]
  rfl
theorem kNT_rhs1 (i : S256x256.Idx) (q : kNT.contr.Idx) : (kNT.rhsIdx i q 1).val = (q ⟨0, by decide⟩).val :=
  kNT.rhsIdx_val_of_single rfl i q

/-- P · Qᵀ on the matrix unit, from the zero accumulator, at (c, d): the inner product of row `c` of `P` and row `d` of `Q`. -/
theorem kernel_gram {φ₁ φ₂ : FTy} (P : FVec Ideal S256x4096 φ₁) (Q : FVec Ideal S256x4096 φ₂) (c d : Fin 256) :
    matmul dot_S256x4096_S256x4096_S256x256_1_1_0_0_n_n none P Q (constant S256x256 .f32 0x00000000#32) (ix2 c d)
      = ∑ k : Fin 4096, P (ix2 c k) * Q (ix2 d k) := by
  simp only [matmul]
  rw [Ideal.matmul_constant_zero_apply, ← Equiv.sum_comp (contrEquiv1 kNT 4096 rfl rfl).symm]
  refine Finset.sum_congr rfl fun k _ => ?_
  have hk := contrEquiv1_symm_val kNT 4096 rfl rfl k
  have el : kNT.lhsIdx (ix2 c d) ((contrEquiv1 kNT 4096 rfl rfl).symm k) = ix2 c k := funext fun a => Fin.ext (by
    match a with
    | ⟨0, _⟩ => exact kNT_lhs0 _ _
    | ⟨1, _⟩ => exact (kNT_lhs1 _ _).trans hk)
  have er : kNT.rhsIdx (ix2 c d) ((contrEquiv1 kNT 4096 rfl rfl).symm k) = ix2 d k := funext fun a => Fin.ext (by
    match a with
    | ⟨0, _⟩ => exact kNT_rhs0 _ _
    | ⟨1, _⟩ => exact (kNT_rhs1 _ _).trans hk)
  rw [el, er]

theorem kNN_lhs0 (i : S256x4096.Idx) (q : kNN.contr.Idx) : (kNN.lhsIdx i q 0).val = (i 0).val := by
  unfold DotDims.lhsIdx
  rw [dif_neg (show ¬(0 : Fin S256x256.rank) ∈ kNN.lhsBatch by decide), dif_pos (show (0 : Fin S256x256.rank) ∈ kNN.lhsNonContracting by decide)]
  rfl
theorem kNN_lhs1 (i : S256x4096.Idx) (q : kNN.contr.Idx) : (kNN.lhsIdx i q 1).val = (q ⟨0, by decide⟩).val :=
  kNN.lhsIdx_val_of_single rfl i q
theorem kNN_rhs0 (i : S256x4096.Idx) (q : kNN.contr.Idx) : (kNN.rhsIdx i q 0).val = (q ⟨0, by decide⟩).val :=
  kNN.rhsIdx_val_of_single rfl i q
theorem kNN_rhs1 (i : S256x4096.Idx) (q : kNN.contr.Idx) : (kNN.rhsIdx i q 1).val = (i 1).val := by
  unfold DotDims.rhsIdx
  rw [dif_neg (show ¬(1 : Fin S256x4096.rank) ∈ kNN.rhsBatch by decide), dif_pos (show (1 : Fin S256x4096.rank) ∈ kNN.rhsNonContracting by decide)]
  rfl

/-- W · X on the matrix unit, from the zero accumulator, at (c, k): the sum over `d` of W (c, d) · X (d, k). -/
theorem kernel_mix {φ₁ φ₂ : FTy} (W : FVec Ideal S256x256 φ₁) (X : FVec Ideal S256x4096 φ₂) (c : Fin 256) (k : Fin 4096) :
    matmul dot_S256x256_S256x4096_S256x4096_1_0_0_1_n_n none W X (constant S256x4096 .f32 0x00000000#32) (ix2 c k)
      = ∑ d : Fin 256, W (ix2 c d) * X (ix2 d k) := by
  simp only [matmul]
  rw [Ideal.matmul_constant_zero_apply, ← Equiv.sum_comp (contrEquiv1 kNN 256 rfl rfl).symm]
  refine Finset.sum_congr rfl fun d _ => ?_
  have hd := contrEquiv1_symm_val kNN 256 rfl rfl d
  have el : kNN.lhsIdx (ix2 c k) ((contrEquiv1 kNN 256 rfl rfl).symm d) = ix2 c d := funext fun a => Fin.ext (by
    match a with
    | ⟨0, _⟩ => exact kNN_lhs0 _ _
    | ⟨1, _⟩ => exact (kNN_lhs1 _ _).trans hd)
  have er : kNN.rhsIdx (ix2 c k) ((contrEquiv1 kNN 256 rfl rfl).symm d) = ix2 d k := funext fun a => Fin.ext (by
    match a with
    | ⟨0, _⟩ => exact (kNN_rhs0 _ _).trans hd
    | ⟨1, _⟩ => exact kNN_rhs1 _ _)
  rw [el, er]

end Kernel

/-! ## On the host, over the stack of sixteen matrices -/

section Host

open Cert.ReferenceIdeal Cert.ReferenceIdeal.Gen Cert.ReferenceIdeal.Read

abbrev hNT : DotDims S16x256x4096 S16x256x4096 S16x256x256 := dot_S16x256x4096_S16x256x4096_S16x256x256_2_2_1_1_0_0
abbrev hNN : DotDims S16x256x256 S16x256x4096 S16x256x4096 := dot_S16x256x256_S16x256x4096_S16x256x4096_2_1_1_2_0_0

/-- The host's batched L · Rᵀ at (b, c, d): the inner product of rows `c` of `L` and `d` of `R` in matrix `b`. -/
theorem host_gram {φ₁ φ₂ : FTy} (L : FVec Ideal S16x256x4096 φ₁) (R : FVec Ideal S16x256x4096 φ₂) (b : Fin 16) (c d : Fin 256) :
    Host.dotGeneral dot_S16x256x4096_S16x256x4096_S16x256x256_2_2_1_1_0_0 none L R (ix3 b c d)
      = ∑ k : Fin 4096, L (ix3 b c k) * R (ix3 b d k) := by
  simp only [Host.dotGeneral]
  rw [Ideal.dotGeneral_apply, ← Equiv.sum_comp (contrEquiv1 hNT 4096 rfl rfl).symm]
  refine Finset.sum_congr rfl fun k _ => ?_
  have hk := contrEquiv1_symm_val hNT 4096 rfl rfl k
  have el : hNT.lhsIdx (ix3 b c d) ((contrEquiv1 hNT 4096 rfl rfl).symm k) = ix3 b c k := funext fun a => Fin.ext (by
    match a with
    | ⟨0, _⟩ => exact lhs_main_v12_0 _ _
    | ⟨1, _⟩ => exact lhs_main_v12_1 _ _
    | ⟨2, _⟩ => exact (lhs_main_v12_2 _ _).trans hk)
  have er : hNT.rhsIdx (ix3 b c d) ((contrEquiv1 hNT 4096 rfl rfl).symm k) = ix3 b d k := funext fun a => Fin.ext (by
    match a with
    | ⟨0, _⟩ => exact rhs_main_v12_0 _ _
    | ⟨1, _⟩ => exact rhs_main_v12_1 _ _
    | ⟨2, _⟩ => exact (rhs_main_v12_2 _ _).trans hk)
  rw [el, er]

/-- The host's batched W · X at (b, c, k): the sum over `d` of W (b, c, d) · X (b, d, k). -/
theorem host_mix {φ₁ φ₂ : FTy} (W : FVec Ideal S16x256x256 φ₁) (X : FVec Ideal S16x256x4096 φ₂) (b : Fin 16) (c : Fin 256) (k : Fin 4096) :
    Host.dotGeneral dot_S16x256x256_S16x256x4096_S16x256x4096_2_1_1_2_0_0 none W X (ix3 b c k)
      = ∑ d : Fin 256, W (ix3 b c d) * X (ix3 b d k) := by
  simp only [Host.dotGeneral]
  rw [Ideal.dotGeneral_apply, ← Equiv.sum_comp (contrEquiv1 hNN 256 rfl rfl).symm]
  refine Finset.sum_congr rfl fun d _ => ?_
  have hd := contrEquiv1_symm_val hNN 256 rfl rfl d
  have el : hNN.lhsIdx (ix3 b c k) ((contrEquiv1 hNN 256 rfl rfl).symm d) = ix3 b c d := funext fun a => Fin.ext (by
    match a with
    | ⟨0, _⟩ => exact lhs_main_v40_0 _ _
    | ⟨1, _⟩ => exact lhs_main_v40_1 _ _
    | ⟨2, _⟩ => exact (lhs_main_v40_2 _ _).trans hd)
  have er : hNN.rhsIdx (ix3 b c k) ((contrEquiv1 hNN 256 rfl rfl).symm d) = ix3 b d k := funext fun a => Fin.ext (by
    match a with
    | ⟨0, _⟩ => exact rhs_main_v40_0 _ _
    | ⟨1, _⟩ => exact (rhs_main_v40_1 _ _).trans hd
    | ⟨2, _⟩ => exact rhs_main_v40_2 _ _)
  rw [el, er]

end Host

end Cert.Dots

end
-- ==== Proof.KernelBlock.lean ====
/-
  What the kernel's body computes from its two loaded blocks, read at an index: the block it stores is `Spec.fused` of
  the two blocks taken as 256 × 4096 matrices. The body's values are read in the order it computes them: the two
  normalised blocks, the two score matrices, the first softmax, and the store's payload (the second softmax and the two
  products with the unnormalised blocks, added). The narrowing of a product's operands to sixteen bits is the identity
  on the extended reals.
-/
import proofs.«139814_j75307956568506_1_alg».proof.Proof.Gen.KernelIdeal.Skeleton
import proofs.«139814_j75307956568506_1_alg».proof.Proof.LibRowOps
import proofs.«139814_j75307956568506_1_alg».proof.Proof.Spec
import proofs.«139814_j75307956568506_1_alg».proof.Proof.Dots
import Idealize.ShloMosaic.Lib.ValueLayout

noncomputable section

namespace Cert.KernelBlock

open Idealize.ShloMosaic Idealize.ShloMosaic.ValueIdx Cert.KernelIdeal Cert.KernelIdeal.Gen Cert.Lib.RowOps Cert.Spec Cert.Dots

/-- A loaded [1, 256, 4096] block as a matrix. -/
def blockMat (X : Vec Ideal S1x256x4096 .f32) : Fin 256 → Fin 4096 → EReal := fun c k => X (ix3 (0 : Fin 1) c k)

/-- The first block with every row divided by its floored norm. -/
theorem pay6_apply (X : Vec Ideal S1x256x4096 .f32) (c : Fin 256) (k : Fin 4096) :
    k0_pay6 (F := Ideal) X (ix2 c k) = normalize eps (blockMat X) c k := by
  unfold k0_pay6 k0_pay2
  simp only [truncf_apply, divf_apply, vec_colBroadcast, maximumf_apply, sqrt_apply, vec_col, broadcast_apply,
    shapeCast_1ab_ab_apply, scalar_ofBits]
  rw [vec_rowSum]
  simp only [mulf_apply, shapeCast_1ab_ab_apply]
  rfl

/-- The second block likewise. -/
theorem pay7_apply (X : Vec Ideal S1x256x4096 .f32) (c : Fin 256) (k : Fin 4096) :
    k0_pay7 (F := Ideal) X (ix2 c k) = normalize eps (blockMat X) c k := by
  unfold k0_pay7 k0_pay3
  simp only [truncf_apply, divf_apply, vec_colBroadcast, maximumf_apply, sqrt_apply, vec_col, broadcast_apply,
    shapeCast_1ab_ab_apply, scalar_ofBits]
  rw [vec_rowSum]
  simp only [mulf_apply, shapeCast_1ab_ab_apply]
  rfl

/-- The second score matrix: the second normalised block against itself plus the first against the second. -/
theorem pay9_apply (X0 X1 : Vec Ideal S1x256x4096 .f32) (c d : Fin 256) :
    k0_pay9 (F := Ideal) X0 X1 (ix2 c d) = scores (normalize eps (blockMat X1)) (normalize eps (blockMat X0)) c d := by
  unfold k0_pay9
  simp only [addf_apply, kernel_gram, pay6_apply, pay7_apply]
  rfl

/-- The softmax of the first score matrix. -/
theorem pay8_apply (X0 X1 : Vec Ideal S1x256x4096 .f32) (c d : Fin 256) :
    k0_pay8 (F := Ideal) X0 X1 (ix2 c d)
      = softmax ninf (scores (normalize eps (blockMat X0)) (normalize eps (blockMat X1))) c d := by
  unfold k0_pay8
  simp only [divf_apply, exp_apply, subf_apply, vec_colBroadcast, vec_col, maximumf_apply, broadcast_apply, addf_apply,
    kernel_gram, pay6_apply, pay7_apply, scalar_ofBits]
  rw [vec_rowSum]
  simp only [exp_apply, subf_apply, vec_colBroadcast, vec_col, maximumf_apply, broadcast_apply, addf_apply, kernel_gram,
    pay6_apply, pay7_apply, scalar_ofBits]
  rw [vec_rowMax]
  simp only [addf_apply, kernel_gram, pay6_apply, pay7_apply]
  rfl

/-- The stored payload, for any first softmax `W` and second score matrix `S`: W · X₀ + softmax S · X₁. -/
theorem pay1_apply (X0 X1 : Vec Ideal S1x256x4096 .f32) (W S : FVec Ideal S256x256 .f32) (u : Fin 1) (c : Fin 256) (k : Fin 4096) :
    k0_pay1 (F := Ideal) (k0_pay4 X0) (k0_pay5 X1) W S (ix3 u c k)
      = mix (fun c d => W (ix2 c d)) (blockMat X0) c k + mix (softmax ninf fun c d => S (ix2 c d)) (blockMat X1) c k := by
  unfold k0_pay1 k0_pay4 k0_pay5 k0_pay2 k0_pay3
  simp only [shapeCast_ab_1ab_apply, addf_apply, kernel_mix, truncf_apply, divf_apply, exp_apply, subf_apply, vec_colBroadcast,
    vec_col, maximumf_apply, broadcast_apply, shapeCast_1ab_ab_apply, scalar_ofBits]
  rw [vec_rowSum]
  simp only [exp_apply, subf_apply, vec_colBroadcast, vec_col, maximumf_apply, broadcast_apply, scalar_ofBits]
  rw [vec_rowMax]
  rfl

/-- THE BODY'S RESULT: the stored block at (0, c, k) is the fused function of the two loaded blocks at (c, k). -/
theorem out_apply (X0 X1 : Vec Ideal S1x256x4096 .f32) (u : Fin 1) (c : Fin 256) (k : Fin 4096) :
    k0_pay1 (F := Ideal) (k0_pay4 X0) (k0_pay5 X1) (k0_pay8 X0 X1) (k0_pay9 X0 X1) (ix3 u c k)
      = fused eps ninf (blockMat X0) (blockMat X1) c k := by
  rw [pay1_apply]
  simp only [pay8_apply, pay9_apply]
  rfl

end Cert.KernelBlock

end
-- ==== Proof.Stack.lean ====
/-
  The same function on a stack of B pairs of matrices: entry (b, c, k) of the result is `Spec.fused` of the two
  matrices `b`, at (c, k). This is the array both programs hold before their final transposition.
-/
import proofs.«139814_j75307956568506_1_alg».proof.Proof.Spec
import Idealize.ShloMosaic.Lib.ValueIdx

noncomputable section

namespace Cert.Stack

open Idealize.ShloMosaic Idealize.ShloMosaic.ValueIdx Cert.Spec

variable {B n m : Nat}

/-- Matrix `b` of a stack. -/
def slab (a : (⟨3, ![B, n, m]⟩ : Shape).Idx → EReal) (b : Fin B) : Fin n → Fin m → EReal := fun c k => a (ix3 b c k)

/-- The fused function, matrix by matrix. -/
def fusedStack (a0 a1 : (⟨3, ![B, n, m]⟩ : Shape).Idx → EReal) : (⟨3, ![B, n, m]⟩ : Shape).Idx → EReal :=
  fun i => fused eps ninf (slab a0 (i 0)) (slab a1 (i 0)) (i 1) (i 2)

theorem fusedStack_ix3 (a0 a1 : (⟨3, ![B, n, m]⟩ : Shape).Idx → EReal) (b : Fin B) (c : Fin n) (k : Fin m) :
    fusedStack a0 a1 (ix3 b c k) = fused eps ninf (slab a0 b) (slab a1 b) c k := rfl

end Cert.Stack

end
-- ==== Proof.KernelValue.lean ====
/-
  What the kernel's program leaves in its result buffer. Grid point `t` loads matrix `t` of each reshaped argument and
  stores matrix `t` of the output array; the sixteen stored blocks tile the array, so after the region the array is
  `fusedStack` of the two reshaped arguments. The lines after the region transpose and reshape it and add the two
  arguments.
-/
import proofs.«139814_j75307956568506_1_alg».proof.Proof.Gen.KernelIdeal.Frame
import proofs.«139814_j75307956568506_1_alg».proof.Proof.KernelBlock
import proofs.«139814_j75307956568506_1_alg».proof.Proof.Stack
import Idealize.ShloMosaic.Lib.Pipeline.Value
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Spec Cert.KernelBlock Cert.Stack

variable (m : (ℓ : Loc nD τ sig) → Buf (Elt Ideal) ℓ) (ρ : Dev nD → PrngReg)

/-- The array function at the program's shapes. -/
def Gk (a0 a1 : FVec Ideal S16x256x4096 .f32) : FVec Ideal S16x256x4096 .f32 :=
  fusedStack (B := 16) (n := 256) (m := 4096) a0 a1

/-- The transposition and reshaping both programs end with, on the [16, 256, 4096] array. -/
def tail (z : FVec Ideal S16x256x4096 .f32) : FVec Ideal S16x256x64x64 .f32 :=
  shapeCast S16x256x64x64 (transpose S16x4096x256 [0, 2, 1] z transposes_S16x256x4096_S16x4096x256_0_2_1) shapeCasts_S16x4096x256_S16x256x64x64

/-- The index the transposition and reshaping read: entry `i` of `tail z` is entry `perm i` of `z`. Never evaluated. -/
def perm (i : S16x256x64x64.Idx) : S16x256x4096.Idx :=
  transposes_S16x256x4096_S16x4096x256_0_2_1.src (Shape.reshapeEquiv shapeCasts_S16x4096x256_S16x256x64x64 i)

theorem tail_apply (z : FVec Ideal S16x256x4096 .f32) (i : S16x256x64x64.Idx) : tail z i = z (perm i) := rfl

/-- An argument reshaped to a stack of sixteen 256 × 4096 matrices. -/
def reshaped (x : FVec Ideal S16x256x64x64 .f32) : FVec Ideal S16x256x4096 .f32 :=
  shapeCast S16x256x4096 x shapeCasts_S16x256x64x64_S16x256x4096

/-- THE RESULT as one function of the two arguments: the fused stack of the reshaped arguments, transposed and
    reshaped back, plus the two arguments. -/
def result (x0 x1 : FVec Ideal S16x256x64x64 .f32) : FVec Ideal S16x256x64x64 .f32 :=
  addf (addf (tail (Gk (reshaped x0) (reshaped x1))) x0) x1

/-- Entry `i` of the result: the fused stack at `perm i`, plus the two arguments' entries. -/
theorem result_apply (x0 x1 : FVec Ideal S16x256x64x64 .f32) (i : S16x256x64x64.Idx) :
    result x0 x1 i = (Gk (reshaped x0) (reshaped x1) (perm i) + x0 i) + x1 i := by
  unfold result
  generalize Gk (reshaped x0) (reshaped x1) = z
  rfl

/-! ## The reshaped arguments as the region finds them -/

theorem V_v0 (c : Dev nD) : (V m c main_v0 : FVec Ideal S16x256x4096 .f32)
    = shapeCast S16x256x4096 (m ((c : Thread nD τ).loc main_arg0)) shapeCasts_S16x256x64x64_S16x256x4096 := by
  show StableHlo.after hostOps0 (fun b => m (c, b)) (Proc.devRef .tc main_v0) = _
  after_results
  rfl

theorem V_v1 (c : Dev nD) : (V m c main_v1 : FVec Ideal S16x256x4096 .f32)
    = shapeCast S16x256x4096 (m ((c : Thread nD τ).loc main_arg1)) shapeCasts_S16x256x64x64_S16x256x4096 := by
  show StableHlo.after hostOps0 (fun b => m (c, b)) (Proc.devRef .tc main_v1) = _
  after_results
  rfl

/-! ## The blocks -/

theorem hz : (![0, 0, 0] : Fin 3 → Nat) = fun _ => 0 := funext fun a => by fin_cases a <;> rfl

/-- The printed index maps, decided over the grid: every window's block at point `t` is block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- A grid point as a matrix of the stack. -/
def pt (t : Fin cfg0.N) : Fin 16 := ⟨t.val, by have h := t.isLt; have hN : cfg0.N = 16 := N_0; omega⟩

theorem emb0 (t : Fin cfg0.N) (y : S1x256x4096.Idx) : ((cfg0.win 0).blk t).view.emb y = ix3 (pt t) (y 1) (y 2) := by
  obtain ⟨e0, e1, e2, -⟩ := idx_facts t
  funext a; apply Fin.ext
  have h0 : (y 0).val < 1 := (y 0).isLt
  match a with
  | ⟨0, _⟩ => show win0_0.index t (0 : Fin 3) * 1 + 1 * (y 0).val = t.val; omega
  | ⟨1, _⟩ => show win0_0.index t (1 : Fin 3) * 256 + 1 * (y 1).val = (y 1).val; omega
  | ⟨2, _⟩ => show win0_0.index t (2 : Fin 3) * 4096 + 1 * (y 2).val = (y 2).val; omega

theorem emb1 (t : Fin cfg0.N) (y : S1x256x4096.Idx) : ((cfg0.win 1).blk t).view.emb y = ix3 (pt t) (y 1) (y 2) := by
  obtain ⟨-, -, -, e0, e1, e2, -⟩ := idx_facts t
  funext a; apply Fin.ext
  have h0 : (y 0).val < 1 := (y 0).isLt
  match a with
  | ⟨0, _⟩ => show win0_1.index t (0 : Fin 3) * 1 + 1 * (y 0).val = t.val; omega
  | ⟨1, _⟩ => show win0_1.index t (1 : Fin 3) * 256 + 1 * (y 1).val = (y 1).val; omega
  | ⟨2, _⟩ => show win0_1.index t (2 : Fin 3) * 4096 + 1 * (y 2).val = (y 2).val; omega

theorem emb2 (t : Fin cfg0.N) (y : S1x256x4096.Idx) : ((cfg0.win 2).blk t).view.emb y = ix3 (pt t) (y 1) (y 2) := by
  obtain ⟨-, -, -, -, -, -, e0, e1, e2⟩ := idx_facts t
  funext a; apply Fin.ext
  have h0 : (y 0).val < 1 := (y 0).isLt
  match a with
  | ⟨0, _⟩ => show win0_2.index t (0 : Fin 3) * 1 + 1 * (y 0).val = t.val; omega
  | ⟨1, _⟩ => show win0_2.index t (1 : Fin 3) * 256 + 1 * (y 1).val = (y 1).val; omega
  | ⟨2, _⟩ => show win0_2.index t (2 : Fin 3) * 4096 + 1 * (y 2).val = (y 2).val; omega

/-- Input window 0's block at point `t` is matrix `t` of the first reshaped argument. -/
theorem iblk0_apply (c : Dev nD) (t : Fin cfg0.N) (y : S1x256x4096.Idx) :
    iblk m c 0 t y = (V m c main_v0 : FVec Ideal S16x256x4096 .f32) (ix3 (pt t) (y 1) (y 2)) := by
  show (V m c main_v0 : FVec Ideal S16x256x4096 .f32) (((cfg0.win 0).blk t).view.emb y) = _
  exact congrArg (V m c main_v0 : FVec Ideal S16x256x4096 .f32) (emb0 t y)

theorem iblk1_apply (c : Dev nD) (t : Fin cfg0.N) (y : S1x256x4096.Idx) :
    iblk m c 1 t y = (V m c main_v1 : FVec Ideal S16x256x4096 .f32) (ix3 (pt t) (y 1) (y 2)) := by
  show (V m c main_v1 : FVec Ideal S16x256x4096 .f32) (((cfg0.win 1).blk t).view.emb y) = _
  exact congrArg (V m c main_v1 : FVec Ideal S16x256x4096 .f32) (emb1 t y)

/-- The stored block of any two loaded blocks that are matrix `b` of two arrays is matrix `b` of `Gk` of the arrays. -/
theorem block_eq (A0 A1 : FVec Ideal S16x256x4096 .f32) (X0 X1 : Vec Ideal S1x256x4096 .f32) (b : Fin 16)
    (h0 : ∀ y : S1x256x4096.Idx, X0 y = A0 (ix3 b (y 1) (y 2))) (h1 : ∀ y : S1x256x4096.Idx, X1 y = A1 (ix3 b (y 1) (y 2)))
    (j : S1x256x4096.Idx) :
    k0_pay1 (F := Ideal) (k0_pay4 X0) (k0_pay5 X1) (k0_pay8 X0 X1) (k0_pay9 X0 X1) j = Gk A0 A1 (ix3 b (j 1) (j 2)) := by
  obtain ⟨u, p, q, rfl⟩ : ∃ (u : Fin 1) (p : Fin 256) (q : Fin 4096), j = ix3 u p q := ⟨j 0, j 1, j 2, eq_ix3 j⟩
  rw [out_apply]
  have e0 : blockMat X0 = slab A0 b := funext fun p => funext fun q => h0 (ix3 (0 : Fin 1) p q)
  have e1 : blockMat X1 = slab A1 b := funext fun p => funext fun q => h1 (ix3 (0 : Fin 1) p q)
  rw [e0, e1]
  rfl

/-- WHAT POINT `t` WRITES BACK is block `t` of `Gk` of the reshaped arguments. -/
theorem flushed_eq (c : Dev nD) (t : Fin cfg0.N) :
    (dats m 0 c).flushed 2 t = ((cfg0.win 2).blk t).view.read (Elt Ideal) (Gk (V m c main_v0) (V m c main_v1)) := by
  show (cfg0.win 2).cut (grid0.coords t) ((dats m 0 c).after 2 t) = _
  rw [after0_2]
  unfold out0_2
  rw [View.canon_unit_zero hz]
  simp only [View.ld_unit_zero (S := S1x256x4096) hz]
  funext j
  show k0_pay1 (F := Ideal) (k0_pay4 (iblk m c 0 t)) (k0_pay5 (iblk m c 1 t)) (k0_pay8 (iblk m c 0 t) (iblk m c 1 t)) (k0_pay9 (iblk m c 0 t) (iblk m c 1 t)) j
      = Gk (V m c main_v0) (V m c main_v1) (((cfg0.win 2).blk t).view.emb j)
  rw [emb2]
  exact block_eq (V m c main_v0) (V m c main_v1) (iblk m c 0 t) (iblk m c 1 t) (pt t) (iblk0_apply m c t) (iblk1_apply m c t) j

/-- An index of the array is in point `t`'s block iff each coordinate is in the block's range on its axis. -/
theorem mem_blk (t : Fin cfg0.N) (i : S16x256x4096.Idx) :
    i ∈ ((cfg0.win 2).blk t).view.set ↔ ∀ a : Fin 3, win0_2.index t a * S1x256x4096.size a ≤ (i a).val ∧ (i a).val < win0_2.index t a * S1x256x4096.size a + S1x256x4096.size a := by
  show i ∈ ((View.whole main_v2).slice (win0_2.rect t)).set ↔ _
  rw [View.set_slice_whole, Rect.mem_set_unit]
  exact Iff.rfl

/-- Matrix `b` of the array is point `b`'s block: the sixteen blocks cover it. -/
theorem cover (i : S16x256x4096.Idx) : ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 4096 := (i 2).isLt
  let t : Fin cfg0.N := ⟨(i 0).val, by rw [show cfg0.N = 16 from N_0]; exact hi0⟩
  obtain ⟨-, -, -, -, -, -, e0, e1, e2⟩ := idx_facts t
  have ht : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4096 ≤ (i 2).val ∧ (i 2).val < win0_2.index t (2 : Fin 3) * 4096 + 4096; omega

/-- THE OUTPUT ARRAY after the region. -/
theorem final (c : Dev nD) : (dats m 0 c).arrAt 2 cfg0.N = Gk (V m c main_v0) (V m c main_v1) :=
  (dats m 0 c).arrAt_eq_of_cover 2 (Gk (V m c main_v0) (V m c main_v1)) (fun t _ => flushed_eq m c t) cover

/-! ## The lines after the region -/

/-- THE RESULT BUFFER after the whole program. -/
theorem result_eq (c : Dev nD) :
    (Pipeline.afterTail₀ cfgs (dats m) 0 (V0 m) [hostOps1] c main_v6 : FVec Ideal S16x256x64x64 .f32)
      = addf (addf (tail (Gk (V m c main_v0) (V m c main_v1))) (m ((c : Thread nD τ).loc main_arg0) : FVec Ideal S16x256x64x64 .f32))
          (m ((c : Thread nD τ).loc main_arg1) : FVec Ideal S16x256x64x64 .f32) := by
  unfold Pipeline.afterTail₀
  simp only [List.flatten_cons, List.flatten_nil, List.append_nil]
  after_results
  have e2 : (Pipeline.withArrays (cfgs 0).spec c (V0 m c) (fun w => (dats m 0 c).arrAt w (cfgs 0).N) (Proc.devRef .tc main_v2) : FVec Ideal S16x256x4096 .f32)
      = Gk (V m c main_v0) (V m c main_v1) :=
    (Pipeline.withArrays_arr spec0 launch0.win.arr_inj c _ _ 2).trans (final m c)
  have e0 : (Pipeline.withArrays (cfgs 0).spec c (V0 m c) (fun w => (dats m 0 c).arrAt w (cfgs 0).N) (Proc.devRef .tc main_arg0) : FVec Ideal S16x256x64x64 .f32)
      = m ((c : Thread nD τ).loc main_arg0) :=
    (Pipeline.withArrays_of_ne _ c (V0 m c) _ main_arg0 (by exact (by decide : ∀ w, Pipeline.arrRef spec0 w ≠ main_arg0))).trans (V_main_arg0 m c)
  have e1 : (Pipeline.withArrays (cfgs 0).spec c (V0 m c) (fun w => (dats m 0 c).arrAt w (cfgs 0).N) (Proc.devRef .tc main_arg1) : FVec Ideal S16x256x64x64 .f32)
      = m ((c : Thread nD τ).loc main_arg1) :=
    (Pipeline.withArrays_of_ne _ c (V0 m c) _ main_arg1 (by exact (by decide : ∀ w, Pipeline.arrRef spec0 w ≠ main_arg1))).trans (V_main_arg1 m c)
  rw [e2, e0, e1]
  rfl

/-- The same as the one function `result` of the two arguments as launched. -/
theorem kernel_result (c : Dev nD) :
    (Pipeline.afterTail₀ cfgs (dats m) 0 (V0 m) [hostOps1] c main_v6 : FVec Ideal S16x256x64x64 .f32)
      = result (m ((c : Thread nD τ).loc main_arg0)) (m ((c : Thread nD τ).loc main_arg1)) := by
  rw [result_eq, V_v0, V_v1]
  rfl

/-! ## The run, read -/

/-- Every weakly fair execution of the kernel's program terminates with the result buffer at `result` of the two
    arguments and the arguments unchanged: the frame run's post read at the result buffer and at the arguments. -/
theorem run : θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (kernel_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelValue

end
-- ==== Proof.RefBlock.lean ====
/-
  What the reference computes, read at an index of matrix `b` of the stack of sixteen: the sum of its two
  back-projections at (b, c, k) is `Spec.fused` of the two reshaped arguments' matrices `b` at (c, k). Every operation of
  the reference acts on each matrix of the stack separately; the stages are read in program order.
-/
import proofs.«139814_j75307956568506_1_alg».proof.Proof.Gen.ReferenceIdeal.Read
import proofs.«139814_j75307956568506_1_alg».proof.Proof.LibRowOps
import proofs.«139814_j75307956568506_1_alg».proof.Proof.Spec
import proofs.«139814_j75307956568506_1_alg».proof.Proof.Dots

noncomputable section

namespace Cert.RefBlock

open Idealize.ShloMosaic Idealize.ShloMosaic.ValueIdx Cert.ReferenceIdeal Cert.ReferenceIdeal.Gen Cert.ReferenceIdeal.Read
open Cert.Lib.RowOps Cert.Spec Cert.Dots

/-- Matrix `b` of a stack of sixteen 256 × 4096 matrices. -/
def batchMat (a : FVec Ideal S16x256x4096 .f32) (b : Fin 16) : Fin 256 → Fin 4096 → EReal := fun c k => a (ix3 b c k)

/-- The host's row sums over 4096 entries and over 256 entries, and its row maximum over 256, at the program's shapes. -/
theorem rowSum4096 (x : FVec Ideal S16x256x4096 .f32) (init : S_.Idx → Ideal .f32) (b : Fin 16) (c : Fin 256) :
    Host.reduceAdd x init reducesTo_S16x256x4096_S16x256_d2 h_S_ (ix2 b c) = init (Shape.Idx.first h_S_) + ∑ k : Fin 4096, x (ix3 b c k) :=
  host_rowSum x init reducesTo_S16x256x4096_S16x256_d2 (by decide) h_S_ b c
theorem rowSum256 (x : FVec Ideal S16x256x256 .f32) (init : S_.Idx → Ideal .f32) (b : Fin 16) (c : Fin 256) :
    Host.reduceAdd x init reducesTo_S16x256x256_S16x256_d2 h_S_ (ix2 b c) = init (Shape.Idx.first h_S_) + ∑ k : Fin 256, x (ix3 b c k) :=
  host_rowSum x init reducesTo_S16x256x256_S16x256_d2 (by decide) h_S_ b c
theorem rowMax256 (x : FVec Ideal S16x256x256 .f32) (init : S_.Idx → Ideal .f32) (b : Fin 16) (c : Fin 256) :
    Host.reduce FloatOps.maximumf x init reducesTo_S16x256x256_S16x256_d2 h_S_ (ix2 b c)
      = (Finset.univ : Finset (Fin 256)).fold max (init (Shape.Idx.first h_S_)) (fun k => x (ix3 b c k)) :=
  host_rowMax x init reducesTo_S16x256x256_S16x256_d2 (by decide) h_S_ b c

/-- The host's layout operations at the program's shapes: the reduced axis kept as a unit axis, that column broadcast
    over the row (4096 or 256 entries), and a constant broadcast from rank zero. -/
theorem col256 {α : Type} (v : S16x256.Idx → α) (b : Fin 16) (c : Fin 256) (u : Fin 1) :
    broadcastInDim S16x256x1 ![0, 1] bcast_S16x256_S16x256x1_0_1 v (ix3 b c u) = v (ix2 b c) :=
  host_col v bcast_S16x256_S16x256x1_0_1 b c u
theorem colBroadcast4096 {α : Type} (w : S16x256x1.Idx → α) (b : Fin 16) (c : Fin 256) (k : Fin 4096) :
    broadcastInDim S16x256x4096 ![0, 1, 2] bcast_S16x256x1_S16x256x4096_0_1_2 w (ix3 b c k) = w (ix3 b c (0 : Fin 1)) :=
  host_colBroadcast w bcast_S16x256x1_S16x256x4096_0_1_2 b c k
theorem colBroadcast256 {α : Type} (w : S16x256x1.Idx → α) (b : Fin 16) (c : Fin 256) (k : Fin 256) :
    broadcastInDim S16x256x256 ![0, 1, 2] bcast_S16x256x1_S16x256x256_0_1_2 w (ix3 b c k) = w (ix3 b c (0 : Fin 1)) :=
  host_colBroadcast w bcast_S16x256x1_S16x256x256_0_1_2 b c k
theorem splatCol {α : Type} (x : S_.Idx → α) (j : S16x256x1.Idx) :
    broadcastInDim S16x256x1 ![] bcast_S_S16x256x1 x j = x ix0 := host_splat x bcast_S_S16x256x1 j
theorem splatRow {α : Type} (x : S_.Idx → α) (j : S16x256.Idx) :
    broadcastInDim S16x256 ![] bcast_S_S16x256 x j = x ix0 := host_splat x bcast_S_S16x256 j

variable (x0 x1 : (⟨S16x256x64x64, .f32⟩ : BufTy).Contents (Elt Ideal))

/-- Row (b, c) of the first reshaped argument: the sum of its squares. -/
theorem sq0_apply (b : Fin 16) (c : Fin 256) :
    val_main_call0_v1 (F := Ideal) x0 (ix2 b c)
      = ∑ k : Fin 4096, val_main_v0 (F := Ideal) x0 (ix3 b c k) * val_main_v0 (F := Ideal) x0 (ix3 b c k) := by
  unfold val_main_call0_v1 val_main_call0_v0 val_main_call0_cst
  rw [rowSum4096]
  simp only [mulf_apply, constant_apply, Ideal.ofBits_zero_f32, zero_add]

/-- Its floored norm. -/
theorem v4_apply (b : Fin 16) (c : Fin 256) (u : Fin 1) :
    val_main_v4 (F := Ideal) x0 (ix3 b c u) = rowNorm eps (batchMat (val_main_v0 (F := Ideal) x0) b c) := by
  unfold val_main_v4 val_main_v3 val_main_v2 val_main_call0_v2 val_main_cst
  rw [maximumf_apply, host_sqrt_apply, col256, splatCol, sq0_apply]
  rfl

/-- The first reshaped argument with every row divided by its floored norm. -/
theorem v6_apply (b : Fin 16) (c : Fin 256) (k : Fin 4096) :
    val_main_v6 (F := Ideal) x0 (ix3 b c k) = normalize eps (batchMat (val_main_v0 (F := Ideal) x0) b) c k := by
  unfold val_main_v6 val_main_v5
  rw [host_divf_apply, colBroadcast4096, v4_apply]
  rfl

/-- Row (b, c) of the second reshaped argument: the sum of its squares. -/
theorem sq1_apply (b : Fin 16) (c : Fin 256) :
    val_main_call1_v1 (F := Ideal) x1 (ix2 b c)
      = ∑ k : Fin 4096, val_main_v1 (F := Ideal) x1 (ix3 b c k) * val_main_v1 (F := Ideal) x1 (ix3 b c k) := by
  unfold val_main_call1_v1 val_main_call1_v0 val_main_call1_cst
  rw [rowSum4096]
  simp only [mulf_apply, constant_apply, Ideal.ofBits_zero_f32, zero_add]

/-- Its floored norm. -/
theorem v9_apply (b : Fin 16) (c : Fin 256) (u : Fin 1) :
    val_main_v9 (F := Ideal) x1 (ix3 b c u) = rowNorm eps (batchMat (val_main_v1 (F := Ideal) x1) b c) := by
  unfold val_main_v9 val_main_v8 val_main_v7 val_main_call1_v2 val_main_cst_0
  rw [maximumf_apply, host_sqrt_apply, col256, splatCol, sq1_apply]
  rfl

/-- The second reshaped argument with every row divided by its floored norm. -/
theorem v11_apply (b : Fin 16) (c : Fin 256) (k : Fin 4096) :
    val_main_v11 (F := Ideal) x1 (ix3 b c k) = normalize eps (batchMat (val_main_v1 (F := Ideal) x1) b) c k := by
  unfold val_main_v11 val_main_v10
  rw [host_divf_apply, colBroadcast4096, v9_apply]
  rfl

/-- The first score matrix. -/
theorem v16_apply (b : Fin 16) (c d : Fin 256) :
    val_main_v16 (F := Ideal) x0 x1 (ix3 b c d)
      = scores (normalize eps (batchMat (val_main_v0 (F := Ideal) x0) b)) (normalize eps (batchMat (val_main_v1 (F := Ideal) x1) b)) c d := by
  unfold val_main_v16 val_main_v12 val_main_v14
  simp only [addf_apply, host_gram, v6_apply, v11_apply]
  rfl

/-- The second score matrix. -/
theorem v28_apply (b : Fin 16) (c d : Fin 256) :
    val_main_v28 (F := Ideal) x0 x1 (ix3 b c d)
      = scores (normalize eps (batchMat (val_main_v1 (F := Ideal) x1) b)) (normalize eps (batchMat (val_main_v0 (F := Ideal) x0) b)) c d := by
  unfold val_main_v28 val_main_v13 val_main_v15
  simp only [addf_apply, host_gram, v6_apply, v11_apply]
  rfl

/-- Row (b, c) of the first score matrix: its maximum folded from −∞, -/
theorem v17_apply (b : Fin 16) (c : Fin 256) :
    val_main_v17 (F := Ideal) x0 x1 (ix2 b c)
      = (Finset.univ : Finset (Fin 256)).fold max ninf (fun d => val_main_v16 (F := Ideal) x0 x1 (ix3 b c d)) := by
  unfold val_main_v17 val_main_cst_1
  rw [rowMax256]
  rfl

/-- compared with −∞ once more, -/
theorem v19_apply (b : Fin 16) (c : Fin 256) :
    val_main_v19 (F := Ideal) x0 x1 (ix2 b c) = rowTop ninf (fun d => val_main_v16 (F := Ideal) x0 x1 (ix3 b c d)) := by
  unfold val_main_v19 val_main_v18 val_main_cst_2
  rw [maximumf_apply, splatRow, v17_apply]
  rfl

/-- and broadcast back over the row. -/
theorem v21_apply (b : Fin 16) (c d : Fin 256) :
    val_main_v21 (F := Ideal) x0 x1 (ix3 b c d) = rowTop ninf (fun d => val_main_v16 (F := Ideal) x0 x1 (ix3 b c d)) := by
  unfold val_main_v21 val_main_v20
  rw [colBroadcast256, col256, v19_apply]

/-- The exponential of an entry less its row's maximum, -/
theorem v23_apply (b : Fin 16) (c d : Fin 256) :
    val_main_v23 (F := Ideal) x0 x1 (ix3 b c d)
      = Ideal.exp (val_main_v16 (F := Ideal) x0 x1 (ix3 b c d) - rowTop ninf (fun d => val_main_v16 (F := Ideal) x0 x1 (ix3 b c d))) := by
  unfold val_main_v23 val_main_v22
  rw [host_exp_apply, subf_apply, v21_apply]

/-- the row's sum of those, -/
theorem v24_apply (b : Fin 16) (c : Fin 256) :
    val_main_v24 (F := Ideal) x0 x1 (ix2 b c)
      = ∑ d : Fin 256, Ideal.exp (val_main_v16 (F := Ideal) x0 x1 (ix3 b c d) - rowTop ninf (fun d => val_main_v16 (F := Ideal) x0 x1 (ix3 b c d))) := by
  unfold val_main_v24 val_main_cst_3
  rw [rowSum256]
  simp only [v23_apply, constant_apply, Ideal.ofBits_zero_f32, zero_add]

/-- and their quotient: the softmax of the first score matrix. -/
theorem v27_apply (b : Fin 16) (c d : Fin 256) :
    val_main_v27 (F := Ideal) x0 x1 (ix3 b c d) = softmax ninf (fun c d => val_main_v16 (F := Ideal) x0 x1 (ix3 b c d)) c d := by
  unfold val_main_v27 val_main_v26 val_main_v25
  rw [host_divf_apply, colBroadcast256, col256, v24_apply, v23_apply]
  rfl

/-- Row (b, c) of the second score matrix: its maximum folded from −∞, -/
theorem v29_apply (b : Fin 16) (c : Fin 256) :
    val_main_v29 (F := Ideal) x0 x1 (ix2 b c)
      = (Finset.univ : Finset (Fin 256)).fold max ninf (fun d => val_main_v28 (F := Ideal) x0 x1 (ix3 b c d)) := by
  unfold val_main_v29 val_main_cst_4
  rw [rowMax256]
  rfl

/-- compared with −∞ once more, -/
theorem v31_apply (b : Fin 16) (c : Fin 256) :
    val_main_v31 (F := Ideal) x0 x1 (ix2 b c) = rowTop ninf (fun d => val_main_v28 (F := Ideal) x0 x1 (ix3 b c d)) := by
  unfold val_main_v31 val_main_v30 val_main_cst_5
  rw [maximumf_apply, splatRow, v29_apply]
  rfl

/-- and broadcast back over the row. -/
theorem v33_apply (b : Fin 16) (c d : Fin 256) :
    val_main_v33 (F := Ideal) x0 x1 (ix3 b c d) = rowTop ninf (fun d => val_main_v28 (F := Ideal) x0 x1 (ix3 b c d)) := by
  unfold val_main_v33 val_main_v32
  rw [colBroadcast256, col256, v31_apply]

/-- The exponential of an entry less its row's maximum, -/
theorem v35_apply (b : Fin 16) (c d : Fin 256) :
    val_main_v35 (F := Ideal) x0 x1 (ix3 b c d)
      = Ideal.exp (val_main_v28 (F := Ideal) x0 x1 (ix3 b c d) - rowTop ninf (fun d => val_main_v28 (F := Ideal) x0 x1 (ix3 b c d))) := by
  unfold val_main_v35 val_main_v34
  rw [host_exp_apply, subf_apply, v33_apply]

/-- the row's sum of those, -/
theorem v36_apply (b : Fin 16) (c : Fin 256) :
    val_main_v36 (F := Ideal) x0 x1 (ix2 b c)
      = ∑ d : Fin 256, Ideal.exp (val_main_v28 (F := Ideal) x0 x1 (ix3 b c d) - rowTop ninf (fun d => val_main_v28 (F := Ideal) x0 x1 (ix3 b c d))) := by
  unfold val_main_v36 val_main_cst_6
  rw [rowSum256]
  simp only [v35_apply, constant_apply, Ideal.ofBits_zero_f32, zero_add]

/-- and their quotient: the softmax of the second score matrix. -/
theorem v39_apply (b : Fin 16) (c d : Fin 256) :
    val_main_v39 (F := Ideal) x0 x1 (ix3 b c d) = softmax ninf (fun c d => val_main_v28 (F := Ideal) x0 x1 (ix3 b c d)) c d := by
  unfold val_main_v39 val_main_v38 val_main_v37
  rw [host_divf_apply, colBroadcast256, col256, v36_apply, v35_apply]
  rfl

/-- THE REFERENCE'S TWO BACK-PROJECTIONS, ADDED: at (b, c, k) the fused function of the arguments' matrices `b`. -/
theorem sum_apply (b : Fin 16) (c : Fin 256) (k : Fin 4096) :
    val_main_v40 (F := Ideal) x0 x1 (ix3 b c k) + val_main_v41 (F := Ideal) x0 x1 (ix3 b c k)
      = fused eps ninf (batchMat (val_main_v0 (F := Ideal) x0) b) (batchMat (val_main_v1 (F := Ideal) x1) b) c k := by
  unfold val_main_v40 val_main_v41
  simp only [host_mix, v27_apply, v39_apply, v16_apply, v28_apply]
  rfl

end Cert.RefBlock

end
-- ==== Proof.Bridge.lean ====
/-
  The reference's result is the kernel's. The reference transposes and reshapes each of its two back-projections,
  adds the matching argument to each and adds the two sums; the kernel's program adds the back-projections first and
  then the two arguments. The transposition and reshaping only re-index an array, so at every index the two results are
  (a + x) + (b + y) and ((a + b) + x) + y, equal because addition of extended reals is commutative and associative
  (no finiteness is needed); and a + b, the sum of the reference's back-projections, is the fused stack of the
  reshaped arguments.
-/
import proofs.«139814_j75307956568506_1_alg».proof.Proof.KernelValue
import proofs.«139814_j75307956568506_1_alg».proof.Proof.RefBlock

noncomputable section

namespace Cert.Bridge

open Idealize.ShloMosaic Idealize.ShloMosaic.ValueIdx
open Cert.ReferenceIdeal Cert.ReferenceIdeal.Gen Cert.ReferenceIdeal.Read
open Cert.Spec Cert.Stack
open Cert.KernelValue (Gk tail perm reshaped result result_apply)

variable (x0 x1 : (⟨S16x256x64x64, .f32⟩ : BufTy).Contents (Elt Ideal))

/-- The reference's two back-projections, added, are the fused stack of its two reshaped arguments. -/
theorem sum_eq (j : S16x256x4096.Idx) :
    val_main_v40 (F := Ideal) x0 x1 j + val_main_v41 (F := Ideal) x0 x1 j
      = Gk (val_main_v0 (F := Ideal) x0) (val_main_v1 (F := Ideal) x1) j := by
  obtain ⟨b, c, k, rfl⟩ : ∃ (b : Fin 16) (c : Fin 256) (k : Fin 4096), j = ix3 b c k := ⟨j 0, j 1, j 2, eq_ix3 j⟩
  rw [RefBlock.sum_apply x0 x1 b c k]
  generalize val_main_v0 (F := Ideal) x0 = a0
  generalize val_main_v1 (F := Ideal) x1 = a1
  rfl

/-- The reference's reshaped arguments are the kernel program's. -/
theorem v0_eq : val_main_v0 (F := Ideal) x0 = reshaped x0 := rfl
theorem v1_eq : val_main_v1 (F := Ideal) x1 = reshaped x1 := rfl

/-- The reference's transposed and reshaped back-projections read the back-projections at `perm i`. -/
theorem v43_perm (i : S16x256x64x64.Idx) :
    val_main_v43 (F := Ideal) x0 x1 i = val_main_v40 (F := Ideal) x0 x1 (perm i) := by
  unfold val_main_v43 val_main_v42
  generalize val_main_v40 (F := Ideal) x0 x1 = y
  rfl
theorem v46_perm (i : S16x256x64x64.Idx) :
    val_main_v46 (F := Ideal) x0 x1 i = val_main_v41 (F := Ideal) x0 x1 (perm i) := by
  unfold val_main_v46 val_main_v45
  generalize val_main_v41 (F := Ideal) x0 x1 = y
  rfl

/-- THE REFERENCE'S RESULT is the kernel's function of the two arguments. -/
theorem ref_result : val_main_v48 (F := Ideal) x0 x1 = result x0 x1 := by
  funext i
  rw [val_main_v48_apply, val_main_v44_apply, val_main_v47_apply, v43_perm, v46_perm, result_apply, ← v0_eq, ← v1_eq,
    ← sum_eq x0 x1 (perm i)]
  simp only [Ideal.addf_def]
  exact (add_add_add_comm _ _ _ _).trans (add_assoc _ _ _).symm

end Cert.Bridge

end
-- ==== Proof.lean ====
/- The five claims of this certificate.

   Both programs normalise the rows of two stacks of sixteen 256 × 4096 matrices, form two score matrices per pair
   from Gram matrices of the normalised rows, take a row softmax of each and mix the rows of the unnormalised
   matrices with them; the result is transposed, reshaped back and added to the two arguments. The kernel computes
   one pair of matrices per grid point and adds the two mixtures before the transposition; the reference works on
   the whole stacks and adds after it. At the ideal values (extended reals, exact operations) every operation of
   the one is the same function as the matching operation of the other, read index by index, and the two orders of
   the final additions agree because addition of extended reals is commutative and associative; the precondition
   is not used by the value claim. The frames of the two kernel programs are the generated ones; the reference's is
   its generated run with the result dropped; the idealization rewrote nothing. -/
import proofs.«139814_j75307956568506_1_alg».proof.Defs
import proofs.«139814_j75307956568506_1_alg».proof.Proof.Gen.Kernel
import proofs.«139814_j75307956568506_1_alg».proof.Proof.Gen.Kernel.Skeleton
import proofs.«139814_j75307956568506_1_alg».proof.Proof.Gen.Kernel.Launch
import proofs.«139814_j75307956568506_1_alg».proof.Proof.Gen.Kernel.Points
import proofs.«139814_j75307956568506_1_alg».proof.Proof.Gen.Kernel.Frame
import proofs.«139814_j75307956568506_1_alg».proof.Proof.Gen.KernelIdeal
import proofs.«139814_j75307956568506_1_alg».proof.Proof.Gen.KernelIdeal.Skeleton
import proofs.«139814_j75307956568506_1_alg».proof.Proof.Gen.KernelIdeal.Launch
import proofs.«139814_j75307956568506_1_alg».proof.Proof.Gen.KernelIdeal.Points
import proofs.«139814_j75307956568506_1_alg».proof.Proof.Gen.KernelIdeal.Frame
import proofs.«139814_j75307956568506_1_alg».proof.Proof.Gen.ReferenceIdeal
import proofs.«139814_j75307956568506_1_alg».proof.Proof.Gen.ReferenceIdeal.Run
import proofs.«139814_j75307956568506_1_alg».proof.Proof.Gen.ReferenceIdeal.Read
import proofs.«139814_j75307956568506_1_alg».proof.Proof.Gen.Pre_finite_inputs
import proofs.«139814_j75307956568506_1_alg».proof.Proof.KernelValue
import proofs.«139814_j75307956568506_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, run from memories agreeing on the arguments, end with the result buffer at the one function
    `KernelValue.result` of the two arguments. -/
theorem algebraic : Cert.algebraic_KernelIdeal_ReferenceIdeal := by
  intro m ρ m' ρ' _ hagree
  refine ⟨fun c => Cert.KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v48_eq, Cert.Bridge.ref_result, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
